-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S800000 : Shape := ⟨1, ![800000]⟩
abbrev S100x100 : Shape := ⟨2, ![100, 100]⟩
abbrev S100 : Shape := ⟨1, ![100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : FVec F S50000x100 .f32) (main_arg1 : IVec S800000 32) (main_arg2 : IVec S800000 32) (main_arg3 : FVec F S100x100 .f32) (main_arg4 : FVec F S100 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x100 .f32 := Host.absf main_arg3
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S50000x100 : Shape := ⟨2, ![50000, 100]⟩
abbrev S800000 : Shape := ⟨1, ![800000]⟩
abbrev S100x100 : Shape := ⟨2, ![100, 100]⟩
abbrev S100 : Shape := ⟨1, ![100]⟩
abbrev S_ : Shape := ⟨0, ![]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S5000x100 : Shape := ⟨2, ![5000, 100]⟩
abbrev S5000x1 : Shape := ⟨2, ![5000, 1]⟩
abbrev S1x100 : Shape := ⟨2, ![1, 100]⟩

abbrev nBuf : Space → Nat
  | .hbm => 26
  | .vmem => 8
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S100x100, .f32⟩
  | .hbm, ⟨4, _⟩ => ⟨S100, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x100, .f32⟩
  | .hbm, ⟨14, _⟩ => ⟨S_, .f32⟩
  | .hbm, ⟨15, _⟩ => ⟨S50000x100, .f32⟩
  | .hbm, ⟨16, _⟩ => ⟨S800000x1, .i32⟩
  | .hbm, ⟨17, _⟩ => ⟨S50000x100, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S50000x100, .f32⟩
  | .local _ .vmem, ⟨0, _⟩ => ⟨S5000x100, .f32⟩
  | .local _ .vmem, ⟨1, _⟩ => ⟨S5000x100, .f32⟩
  | .local _ .vmem, ⟨2, _⟩ => ⟨S5000x1, .f32⟩
  | .local _ .vmem, ⟨3, _⟩ => ⟨S5000x1, .f32⟩
  | .local _ .vmem, ⟨4, _⟩ => ⟨S100x100, .f32⟩
  | .local _ .vmem, ⟨5, _⟩ => ⟨S100, .f32⟩
  | .local _ .vmem, ⟨6, _⟩ => ⟨S5000x100, .f32⟩
  | .local _ .vmem, ⟨7, _⟩ => ⟨S5000x100, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  broadcasts_S5000x1_S5000x100 : S5000x1.Broadcasts S5000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S100_S100_0 : ∀ a, (![0] : Fin 1 → Nat) a + S100.size a ≤ S100.size a
  h_S100 : 0 < S100.numel
  shapeCasts_S100_S1x100 : S100.ShapeCasts S1x100
  broadcasts_S1x100_S5000x100 : S1x100.Broadcasts S5000x100
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S5000x100_S100x100_S5000x100_1_0_0_1_n_n_wf : DotDims.WF S5000x100 S100x100 S5000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x100.size a ≤ S100x100.size a
  hwx0_2 : ∀ i : grid0.Coords, EltTy.bits .f32 = 32 ∨ (Rect.block (s := S100x100) S100x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100.size a ≤ S100.size a
  hwx0_3 : ∀ i : grid0.Coords, EltTy.bits .f32 = 32 ∨ (Rect.block (s := S100) S100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x100.size a ≤ S50000x100.size a
  hwx0_4 : ∀ i : grid0.Coords, EltTy.bits .f32 = 32 ∨ (Rect.block (s := S50000x100) S5000x100.size (cc0_transform_4 i) (hinb0_4 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf

abbrev win0_0 : Pipeline.Window sig grid0 :=
  Pipeline.Window.ofSpec (Memref.whole main_v9) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S100x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x100 : Shape := ⟨2, ![50000, 100]⟩
abbrev S800000 : Shape := ⟨1, ![800000]⟩
abbrev S100x100 : Shape := ⟨2, ![100, 100]⟩
abbrev S100 : Shape := ⟨1, ![100]⟩
abbrev S_ : Shape := ⟨0, ![]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S1x100 : Shape := ⟨2, ![1, 100]⟩

abbrev nBuf : Space → Nat
  | .hbm => 34
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S100x100, .f32⟩
  | .hbm, ⟨4, _⟩ => ⟨S100, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x100, .f32⟩
  | .hbm, ⟨14, _⟩ => ⟨S_, .f32⟩
  | .hbm, ⟨15, _⟩ => ⟨S50000x100, .f32⟩
  | .hbm, ⟨16, _⟩ => ⟨S800000x1, .i32⟩
  | .hbm, ⟨17, _⟩ => ⟨S50000x100, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x100, .f32⟩
  | .hbm, ⟨29, _⟩ => ⟨S50000x100, .f32⟩
  | .hbm, ⟨30, _⟩ => ⟨S50000x100, .f32⟩
  | .hbm, ⟨31, _⟩ => ⟨S1x100, .f32⟩
  | .hbm, ⟨32, _⟩ => ⟨S50000x100, .f32⟩
  | .hbm, ⟨33, _⟩ => ⟨S50000x100, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S50000x100_S100x100_S50000x100_1_0_0_1_n_n_wf : DotDims.WF S50000x100 S100x100 S50000x100 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf

class Facts : Prop extends Facts₀ where

variable [Facts]
-- ==== Proof.MeanLinearSpec.lean ====
/-
  Mean aggregation of neighbour features followed by a linear layer, as ONE function of four arrays.

  `S` (50000 × 100) holds, per node, the sum of the features of its in-neighbours; `D` (a 50000 × 1 column)
  holds the node's in-degree; `W` (100 × 100) and `b` (100) are the layer's weight and bias. The entry
  `(i, j)` of the result is

      (∑ k, S (i, k) / max (D i) 1 · W (k, j)) + b j

  on the extended reals: row `i` of the sums divided by the in-degree clamped below by one (a node with
  no in-neighbour keeps its zero row), multiplied into the weight, the bias added. Nothing here needs
  the entries to be finite: both programs compute this very expression, term for term.
-/
import Idealize.ShloMosaic.PureOps.Ideal
import Idealize.ShloMosaic.Lib.ValueIdx

noncomputable section

namespace Cert.MeanLinear

open Idealize.ShloMosaic Idealize.ShloMosaic.ValueIdx

/-- The number one, as the f32 word both programs spell it. -/
abbrev one : EReal := Ideal.ofBits .f32 0x3F800000#32

/-- Entry `(i, k)` of the mean-aggregated features: the summed feature over the clamped in-degree. -/
def mean {n : ℕ} (S : FVec Ideal ⟨2, ![n, 100]⟩ .f32) (D : FVec Ideal ⟨2, ![n, 1]⟩ .f32) (i : Fin n) (k : Fin 100) : EReal :=
  Ideal.div (S (ix2 i k)) (max (D (ix2 i (0 : Fin 1))) one)

/-- The layer on `n` rows: `(mean · W) + b`, entry by entry. -/
def layer {n : ℕ} (S : FVec Ideal ⟨2, ![n, 100]⟩ .f32) (D : FVec Ideal ⟨2, ![n, 1]⟩ .f32)
    (W : FVec Ideal ⟨2, ![100, 100]⟩ .f32) (b : FVec Ideal ⟨1, ![100]⟩ .f32) : FVec Ideal ⟨2, ![n, 100]⟩ .f32 :=
  fun i => (∑ k : Fin 100, mean S D (i 0) k * W (ix2 k (i 1))) + b (ix1 (i 1))

theorem layer_apply {n : ℕ} (S : FVec Ideal ⟨2, ![n, 100]⟩ .f32) (D : FVec Ideal ⟨2, ![n, 1]⟩ .f32)
    (W : FVec Ideal ⟨2, ![100, 100]⟩ .f32) (b : FVec Ideal ⟨1, ![100]⟩ .f32) (p : Fin n) (q : Fin 100) :
    layer S D W b (ix2 p q) = (∑ k : Fin 100, mean S D p k * W (ix2 k q)) + b (ix1 q) := rfl

end Cert.MeanLinear

end
-- ==== Proof.LibPlainDot.lean ====
/-
  A plain matrix product read at an index. For an `M × K` left operand and a `K × N` right operand contracted
  over the shared axis, the entry `(p, j)` of the product accumulated into zero is the finite sum over `k` of
  `lhs (p, k) * rhs (k, j)` on the extended reals: the contraction's one index ranges over `Fin K`, and the two
  operand indices it selects are `(p, k)` and `(k, j)`.
-/
import Idealize.ShloMosaic.PureOps.Ideal.Laws
import Idealize.ShloMosaic.Lib.ValueIdx

noncomputable section

namespace PlainDot

open Idealize.ShloMosaic Idealize.ShloMosaic.ValueIdx

/-- The left operand's index selected by output `(p, j)` and contraction coordinate `k` is `(p, k)`. -/
theorem lhsIdx_eq (M K N : ℕ) (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p j) _).trans hk

/-- The right operand's index selected by output `(p, j)` and contraction coordinate `k` is `(k, j)`. -/
theorem rhsIdx_eq (M K N : ℕ) (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl (ix2 p j) _).trans hk
  | ⟨1, _⟩ => rfl

/-- A kernel's matrix product into the zero accumulator, at `(p, j)`: `∑ k, lhs (p, k) * rhs (k, j)`. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (j : Fin N) :
    FloatOps.matmul (DotDims.plain M K N) prec lhs rhs (constant (F := Ideal) ⟨2, ![M, N]⟩ .f32 0x00000000#32) (ix2 p j)
      = ∑ k : Fin K, lhs (ix2 p k) * rhs (ix2 k j) := by
  rw [Ideal.matmul_constant_zero_apply, ← Equiv.sum_comp (contrEquiv1 (DotDims.plain M K N) K rfl rfl).symm]
  refine Finset.sum_congr rfl fun k _ => ?_
  rw [lhsIdx_eq, rhsIdx_eq]

/-- The host's product of the same dimensions, at `(p, j)`: the same sum. -/
theorem dotGeneral_apply {φ₁ φ₂ : FTy} (M K N : ℕ) (prec : Option ContractPrecision) (sched : HostSchedule)
    (lhs : FVec Ideal ⟨2, ![M, K]⟩ φ₁) (rhs : FVec Ideal ⟨2, ![K, N]⟩ φ₂) (p : Fin M) (j : Fin N) :
    FloatOps.dotGeneral (DotDims.plain M K N) prec sched lhs rhs (ix2 p j)
      = ∑ k : Fin K, lhs (ix2 p k) * rhs (ix2 k j) := by
  rw [Ideal.dotGeneral_apply, ← Equiv.sum_comp (contrEquiv1 (DotDims.plain M K N) K rfl rfl).symm]
  refine Finset.sum_congr rfl fun k _ => ?_
  rw [lhsIdx_eq, rhsIdx_eq]

end PlainDot

end
-- ==== Proof.LibKeepdims.lean ====
/-
  Two layout facts for a COLUMN, read at an index: an array of `a` numbers cast to an `a × 1` column holds the same
  numbers, and an `a × 1` column broadcast across `b` columns repeats its entry along each row.
-/
import Idealize.ShloMosaic.Lib.ValueLayout
import Idealize.ShloMosaic.Lib.Pipeline.Value

noncomputable section

namespace Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

end
-- ==== Proof.BlockPayload.lean ====
/-
  What the kernel body computes on one block of 5000 rows. From the block of summed features `x0`
  (5000 × 100), the block of in-degrees `x1` (a 5000 × 1 column), the weight `x2` and the bias `x3`, the body
  clamps the degrees below by one, spreads each across its row, divides, multiplies the quotient into the
  weight from a zero accumulator and adds the bias spread down the rows. The two roundings to bf16 in front of the
  product are the identity on the extended reals. So the body's one store is the layer on 5000 rows.
-/
import proofs.«119684_j12893491822858_1_alg».proof.Proof.Gen.KernelIdeal.Skeleton
import proofs.«119684_j12893491822858_1_alg».proof.Proof.MeanLinearSpec
import proofs.«119684_j12893491822858_1_alg».proof.Proof.LibPlainDot
import proofs.«119684_j12893491822858_1_alg».proof.Proof.LibKeepdims
import Idealize.ShloMosaic.Lib.ValueLayout
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.MeanLinear

/-- The body's payload at `(p, q)`: row `p` of the block's mean features against column `q` of the weight, plus the bias. -/
theorem payload_apply (x1 : Vec Ideal S5000x1 .f32) (x0 : Vec Ideal S5000x100 .f32) (x2 : Vec Ideal S100x100 .f32)
    (x3 : Vec Ideal S100 .f32) (p : Fin 5000) (q : Fin 100) :
    k0_pay1 (F := Ideal) x1 x0 x2 x3 (ix2 p q) = layer x0 x1 x2 x3 (ix2 p q) := by
  unfold k0_pay1
  rw [layer_apply, addf_apply]
  refine congrArg₂ (· + ·) ((PlainDot.matmul_zero_apply 5000 100 100 none _ _ p q).trans ?_) ?_
  · refine Finset.sum_congr rfl fun k _ => ?_
    rw [truncf_apply, truncf_apply, divf_apply, shapeCast_self, Keepdims.broadcastTo_a1_ab_apply, maximumf_apply,
      shapeCast_self, broadcast_apply]
    rfl
  · rw [broadcastTo_1b_ab_apply, shapeCast_a_1a_apply]

end Cert.KernelIdeal.Block

end
-- ==== Proof.WholeArray.lean ====
/-
  From blocks to the whole result array. The grid has ten points; point `t` reads rows `5000 t … 5000 t + 4999`
  of the summed features and of the in-degree column, the whole weight and the whole bias, and writes the same
  rows of the result. Row `p` of what point `t` writes is the layer's row `5000 t + p` of the arrays as the
  region finds them, because every entry of the layer's row `r` depends on row `r` of the sums and of the
  degrees only. The ten blocks of rows cover the array (row `r` lies in block `r / 5000`), so the array ends
  holding the layer on all 50000 rows.
-/
import proofs.«119684_j12893491822858_1_alg».proof.Proof.Gen.KernelIdeal.Value
import proofs.«119684_j12893491822858_1_alg».proof.Proof.BlockPayload

noncomputable section

namespace Cert.KernelIdeal.Whole

open Cert.KernelIdeal Cert.KernelIdeal.Gen Idealize.ShloMosaic Idealize.ShloMosaic.TcCoe Idealize.SL.Sem
open Idealize.ShloMosaic.ValueIdx Cert.MeanLinear
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The region's four input arrays: the per-node sums, the in-degree column, the weight and the bias. -/
abbrev sumsArr (c : Dev nD) : S50000x100.Idx → EReal := V m c (Pipeline.arrRef spec0 (0 : Fin cfg0.W))
abbrev degsArr (c : Dev nD) : S50000x1.Idx → EReal := V m c (Pipeline.arrRef spec0 (1 : Fin cfg0.W))
abbrev weightArr (c : Dev nD) : S100x100.Idx → EReal := V m c (Pipeline.arrRef spec0 (2 : Fin cfg0.W))
abbrev biasArr (c : Dev nD) : S100.Idx → EReal := V m c (Pipeline.arrRef spec0 (3 : Fin cfg0.W))

/-- The layer on all 50000 rows, of the four arrays as the region finds them. -/
abbrev result (c : Dev nD) : S50000x100.Idx → EReal :=
  layer (n := 50000) (sumsArr m c) (degsArr m c) (weightArr m c) (biasArr m c)

/-- The printed index maps over the ten points: the row-block index of the sums, of the degrees and of the result
    is the point's number, every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of point `t`'s blocks is row `5000 t + p` of the arrays. -/
def row (t : Fin cfg0.N) (p : Fin 5000) : Fin 50000 :=
  ⟨5000 * t.val + p.val, by have := t.isLt; have hN : cfg0.N = 10 := N_0; have := p.isLt; omega⟩

/-! Each window's block at point `t`, read at an index, for ANY contents of the window's array. -/

/-- A 50000 × 100 array read through the first window's block at point `t`: entry `(p, k)` is the array's `(5000 t + p, k)`. -/
theorem read_sums (c : Dev nD) (A : Buf (Elt Ideal) ((c : Thread nD τ).loc (Pipeline.arrRef spec0 (0 : Fin cfg0.W))))
    (t : Fin cfg0.N) (p : Fin 5000) (k : Fin 100) :
    (((cfg0.win 0).blk t).view.read (Elt Ideal) A : Vec Ideal S5000x100 .f32) (ix2 p k) = (A : S50000x100.Idx → EReal) (ix2 (row t p) k) := by
  obtain ⟨e0, e1, -⟩ := idx_facts t
  rw [View.read_apply]
  show (A : S50000x100.Idx → EReal) (((cfg0.win 0).blk t).view.emb (ix2 p k)) = _
  refine congrArg (A : S50000x100.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 100 + 1 * k.val = k.val; omega

/-- A 50000 × 1 column read through the second window's block at point `t`: entry `(p, 0)` is the column's `(5000 t + p, 0)`. -/
theorem read_degs (c : Dev nD) (A : Buf (Elt Ideal) ((c : Thread nD τ).loc (Pipeline.arrRef spec0 (1 : Fin cfg0.W))))
    (t : Fin cfg0.N) (p : Fin 5000) :
    (((cfg0.win 1).blk t).view.read (Elt Ideal) A : Vec Ideal S5000x1 .f32) (ix2 p (0 : Fin 1)) = (A : S50000x1.Idx → EReal) (ix2 (row t p) (0 : Fin 1)) := by
  obtain ⟨-, -, e2, e3, -⟩ := idx_facts t
  rw [View.read_apply]
  show (A : S50000x1.Idx → EReal) (((cfg0.win 1).blk t).view.emb (ix2 p (0 : Fin 1))) = _
  refine congrArg (A : S50000x1.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

/-- The weight's one block is the whole weight. -/
theorem read_weight (c : Dev nD) (A : Buf (Elt Ideal) ((c : Thread nD τ).loc (Pipeline.arrRef spec0 (2 : Fin cfg0.W))))
    (t : Fin cfg0.N) (k q : Fin 100) :
    (((cfg0.win 2).blk t).view.read (Elt Ideal) A : Vec Ideal S100x100 .f32) (ix2 k q) = (A : S100x100.Idx → EReal) (ix2 k q) := by
  obtain ⟨-, -, -, -, e4, e5, -⟩ := idx_facts t
  rw [View.read_apply]
  show (A : S100x100.Idx → EReal) (((cfg0.win 2).blk t).view.emb (ix2 k q)) = _
  refine congrArg (A : S100x100.Idx → EReal) (funext fun a => Fin.ext ?_)
  match a with
  | ⟨0, _⟩ => show win0_2.index t (0 : Fin 2) * 100 + 1 * k.val = k.val; omega
  | ⟨1, _⟩ => show win0_2.index t (1 : Fin 2) * 100 + 1 * q.val = q.val; omega

/-- The bias's one block is the whole bias. -/
theorem read_bias (c : Dev nD) (A : Buf (Elt Ideal) ((c : Thread nD τ).loc (Pipeline.arrRef spec0 (3 : Fin cfg0.W))))
    (t : Fin cfg0.N) (q : Fin 100) :
    (((cfg0.win 3).blk t).view.read (Elt Ideal) A : Vec Ideal S100 .f32) (ix1 q) = (A : S100.Idx → EReal) (ix1 q) := by
  obtain ⟨-, -, -, -, -, -, e6, -⟩ := idx_facts t
  rw [View.read_apply]
  show (A : S100.Idx → EReal) (((cfg0.win 3).blk t).view.emb (ix1 q)) = _
  refine congrArg (A : S100.Idx → EReal) (funext fun a => Fin.ext ?_)
  match a with
  | ⟨0, _⟩ => show win0_3.index t (0 : Fin 1) * 100 + 1 * q.val = q.val; omega

/-- A 50000 × 100 array read through the result window's block at point `t`: entry `(p, q)` is the array's `(5000 t + p, q)`. -/
theorem read_out (c : Dev nD) (A : Buf (Elt Ideal) ((cfg0.win 4).arr.view.loc (c.tc : Thread nD τ)))
    (t : Fin cfg0.N) (p : Fin 5000) (q : Fin 100) :
    (((cfg0.win 4).blk t).view.read (Elt Ideal) A : Vec Ideal S5000x100 .f32) (ix2 p q) = (A : S50000x100.Idx → EReal) (ix2 (row t p) q) := by
  obtain ⟨-, -, -, -, -, -, -, e7, e8⟩ := idx_facts t
  rw [View.read_apply]
  show (A : S50000x100.Idx → EReal) (((cfg0.win 4).blk t).view.emb (ix2 p q)) = _
  refine congrArg (A : S50000x100.Idx → EReal) (funext fun a => Fin.ext ?_)
  match a with
  | ⟨0, _⟩ => show win0_4.index t (0 : Fin 2) * 5000 + 1 * p.val = 5000 * t.val + p.val; omega
  | ⟨1, _⟩ => show win0_4.index t (1 : Fin 2) * 100 + 1 * q.val = q.val; omega

/-- What point `t` writes back is block `t` of the layer on all rows. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz2]
  simp only [View.ld_unit_zero (S := S5000x100) hz2, View.ld_unit_zero (S := S5000x1) hz2,
    View.ld_unit_zero (S := S100x100) hz2, View.ld_unit_zero (S := S100) hz1]
  funext j
  obtain ⟨p, q, rfl⟩ : ∃ (p : Fin 5000) (q : Fin 100), j = ix2 p q := ⟨j 0, j 1, eq_ix2 j⟩
  refine Eq.trans ?_ (read_out c (result m c) t p q).symm
  show k0_pay1 (F := Ideal) (iblk m c 1 t) (iblk m c 0 t) (iblk m c 2 t) (iblk m c 3 t) (ix2 p q) = _
  refine (Block.payload_apply (iblk m c 1 t) (iblk m c 0 t) (iblk m c 2 t) (iblk m c 3 t) p q).trans ?_
  unfold result
  rw [layer_apply, layer_apply]
  unfold iblk sumsArr degsArr weightArr biasArr
  refine congrArg₂ (· + ·) (Finset.sum_congr rfl fun k _ => ?_) (read_bias c _ t q)
  unfold mean
  rw [read_sums c _ t p k, read_degs c _ t p, read_weight c _ t k q]

/-- An index of the array is in point `t`'s block iff each coordinate is in the block's range on its axis. -/
theorem mem_blk (t : Fin cfg0.N) (i : S50000x100.Idx) :
    i ∈ ((cfg0.win 4).blk t).view.set ↔ ∀ a : Fin 2, win0_4.index t a * S5000x100.size a ≤ (i a).val ∧ (i a).val < win0_4.index t a * S5000x100.size a + S5000x100.size a := by
  show i ∈ ((View.whole main_v15).slice (win0_4.rect t)).set ↔ _
  rw [View.set_slice_whole, Rect.mem_set_unit]
  exact Iff.rfl

/-- Every index of the array lies in the block of the point numbered by its row divided by 5000. -/
theorem cover (i : S50000x100.Idx) :
    ∃ t : Fin cfg0.N, (cfg0.win 4).flush t = true ∧ i ∈ ((cfg0.win 4).blk t).view.set := by
  have hi0 : (i 0).val < 50000 := (i 0).isLt
  have hi1 : (i 1).val < 100 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, e7, e8⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 100 ≤ (i 1).val ∧ (i 1).val < win0_4.index t (1 : Fin 2) * 100 + 100; omega

/-- The result array after the run is the layer on all rows. -/
theorem final (c : Dev nD) : (dats m 0 c).arrAt 4 cfg0.N = result m c :=
  (dats m 0 c).arrAt_eq_of_cover 4 (result m c) (fun t _ => flushed_eq m c t) cover

/-- The kernel's run, read: the result array at the layer of the arrays the region finds, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.HostPrefix.lean ====
/-
  What the region finds in its first two windows. Before the region the program gathers the feature row of every
  edge's source (a negative source index wrapped once around the node count), adds the gathered rows into the row
  of the edge's destination starting from zeros — the per-node sums —, adds a one per edge into the destination's
  entry starting from zeros — the in-degrees —, and lays the degrees out as a column. Nothing is said about what
  those sums are; only that the arrays the region finds are these terms of the three argument arrays.
-/
import proofs.«119684_j12893491822858_1_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem
open Idealize.ShloMosaic.StableHlo

/-- The edge sources, a negative one moved up by the node count. -/
def wrapped (x1 : (⟨S800000, .i32⟩ : BufTy).Contents (Elt Ideal)) : (⟨S800000, .i32⟩ : BufTy).Contents (Elt Ideal) :=
  select (cmpi .slt x1 (broadcastInDim S800000 ![] bcast_S_S800000 (constantI S_ 32 0#32)))
    (addi x1 (broadcastInDim S800000 ![] bcast_S_S800000 (constantI S_ 32 50000#32))) x1

/-- The per-node sums: the gathered source rows added into their destinations' rows, from zeros. -/
def sums (x0 : (⟨S50000x100, .f32⟩ : BufTy).Contents (Elt Ideal)) (x1 x2 : (⟨S800000, .i32⟩ : BufTy).Contents (Elt Ideal)) :
    (⟨S50000x100, .f32⟩ : BufTy).Contents (Elt Ideal) :=
  Host.scatterAdd scatter_S50000x100_S800000x1_S800000x100_1_0_0_1
    (broadcastInDim S50000x100 ![] bcast_S_S50000x100 (constant (F := Ideal) S_ .f32 0x00000000#32))
    (broadcastInDim S800000x1 ![0] bcast_S800000_S800000x1_0 x2)
    (Host.gather gather_S50000x100_S800000x1_S800000x100_1_0_n_n_0_1_1100 x0
      (broadcastInDim S800000x1 ![0] bcast_S800000_S800000x1_0 (wrapped x1)))

/-- The in-degrees: a one per edge added into its destination's entry, from zeros. -/
def degs (x2 : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 x2)
    (broadcastInDim S800000 ![] bcast_S_S800000 (constant (F := Ideal) S_ .f32 0x3F800000#32))

variable (m : (ℓ : Loc nD τ sig) → Buf (Elt Ideal) ℓ)

/-- The region finds the per-node sums in its first window's array. -/
theorem V_sums (c : Dev nD) :
    (V m c main_v9 : S50000x100.Idx → EReal)
      = sums (m ((c : Thread nD τ).loc main_arg0)) (m ((c : Thread nD τ).loc main_arg1)) (m ((c : Thread nD τ).loc main_arg2)) := by
  dsimp only [V, hostOps0]
  after_results
  rfl

/-- The region finds the in-degrees, as a column, in its second window's array. -/
theorem V_degs (c : Dev nD) :
    (V m c main_v14 : S50000x1.Idx → EReal)
      = broadcastInDim S50000x1 ![0] bcast_S50000_S50000x1_0 (degs (m ((c : Thread nD τ).loc main_arg2))) := by
  dsimp only [V, hostOps0]
  after_results
  rfl

end Cert.KernelIdeal.Prefix

end
-- ==== Proof.LibVecRowCol.lean ====
/-
  A vector seen as a row or as a column: the reshape of an `[a]` array to `[1, a]` (to `[a, 1]`) and its
  `broadcast_in_dim` along axis 1 (axis 0) into the same shape are one function — both read, at `(u, i)`
  (at `(i, u)`), the vector's entry `i`, the unit coordinate `u` carrying nothing.
-/
import Idealize.ShloMosaic.Lib.ValueLayout
import Idealize.ShloMosaic.Lib.Pipeline.Value

namespace Cert.LibVecRowCol

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along axis 1 into `[1, a]` reads, at `(u, i)`, its entry `i`. -/
theorem bcast_row_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- A vector broadcast along axis 0 into `[a, 1]` reads, at `(i, u)`, its entry `i`. -/
theorem bcast_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The reshape of a vector to a row is its broadcast along axis 1. -/
theorem row_cast_eq_bcast {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨u, i, rfl⟩ : ∃ (u : Fin 1) (i : Fin a), j = ix2 u i := ⟨j 0, j 1, eq_ix2 j⟩
  rw [shapeCast_a_1a_apply, bcast_row_apply]

/-- The reshape of a vector to a column is its broadcast along axis 0. -/
theorem col_cast_eq_bcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨i, u, rfl⟩ : ∃ (i : Fin a) (u : Fin 1), j = ix2 i u := ⟨j 0, j 1, eq_ix2 j⟩
  rw [shapeCast_a_a1_apply, bcast_col_apply]

end Cert.LibVecRowCol
-- ==== Proof.RefLayer.lean ====
/-
  The reference's result, read at an index. The reference clamps the in-degrees below by one, lays them out as a
  column, spreads the column across the rows, divides the per-node sums by it, multiplies by the weight and adds the
  bias spread down the rows. Entry `(p, q)` is therefore `(∑ k, S (p, k) / max (D p) 1 · W (k, q)) + b q`: the layer of
  its own sums stage, of its degrees stage laid out as a column, of the weight and of the bias. Clamping a vector and then
  laying it out as a column, or laying it out and then clamping, read the same number at every row.
-/
import proofs.«119684_j12893491822858_1_alg».proof.Proof.Gen.ReferenceIdeal.Read
import proofs.«119684_j12893491822858_1_alg».proof.Proof.MeanLinearSpec
import proofs.«119684_j12893491822858_1_alg».proof.Proof.LibVecRowCol

noncomputable section

namespace Cert.ReferenceIdeal.RefLayer

open Cert.ReferenceIdeal Cert.ReferenceIdeal.Gen Cert.ReferenceIdeal.Read Idealize.ShloMosaic
open Idealize.ShloMosaic.ValueIdx Cert.MeanLinear

/-- The reference's in-degrees stage laid out as a 50000 × 1 column. -/
def degsColumn (x2 : (⟨S800000, .i32⟩ : BufTy).Contents (Elt Ideal)) : (⟨S50000x1, .f32⟩ : BufTy).Contents (Elt Ideal) :=
  broadcastInDim S50000x1 ![0] bcast_S50000_S50000x1_0 (val_main_v13 (F := Ideal) x2)

/-- The reference's result stage is the layer of its sums stage, its degrees column, the weight and the bias. -/
theorem result_eq (x0 : (⟨S50000x100, .f32⟩ : BufTy).Contents (Elt Ideal)) (x1 x2 : (⟨S800000, .i32⟩ : BufTy).Contents (Elt Ideal))
    (x3 : (⟨S100x100, .f32⟩ : BufTy).Contents (Elt Ideal)) (x4 : (⟨S100, .f32⟩ : BufTy).Contents (Elt Ideal)) :
    val_main_v22 (F := Ideal) x0 x1 x2 x3 x4
      = layer (n := 50000) (val_main_v9 (F := Ideal) x0 x1 x2) (degsColumn x2) x3 x4 := by
  funext i
  obtain ⟨p, q, rfl⟩ : ∃ (p : Fin 50000) (q : Fin 100), i = ix2 p q := ⟨i 0, i 1, eq_ix2 i⟩
  rw [layer_apply, val_main_v22_apply, val_main_v19_apply, val_main_v21_apply, val_main_v20_apply]
  have hb : idx_main_v20 (idx_main_v21 (ix2 p q)) = ix1 q :=
    funext fun a => Fin.ext (by match a with | ⟨0, _⟩ => rfl)
  rw [hb]
  refine congrArg₂ (· + ·) (Finset.sum_congr rfl fun k _ => ?_) rfl
  have hl : lidx_main_v19 (ix2 p q) k = ix2 p k :=
    funext fun a => Fin.ext (by match a with | ⟨0, _⟩ => rfl | ⟨1, _⟩ => rfl)
  have hr : ridx_main_v19 (ix2 p q) k = ix2 k q :=
    funext fun a => Fin.ext (by match a with | ⟨0, _⟩ => rfl | ⟨1, _⟩ => rfl)
  have hd : idx_main_v16 (idx_main_v17 (ix2 p k)) = ix1 p :=
    funext fun a => Fin.ext (by match a with | ⟨0, _⟩ => rfl)
  rw [hl, hr, val_main_v18_apply, val_main_v17_apply, val_main_v16_apply, val_main_v15_apply, val_main_v14_apply,
    val_main_cst_3_apply, hd]
  unfold mean degsColumn
  rw [Cert.LibVecRowCol.bcast_col_apply]
  rfl

end Cert.ReferenceIdeal.RefLayer

end
-- ==== Proof.Bridge.lean ====
/-
  The two programs compute one function. The kernel's program builds the per-node sums and the in-degrees with
  the very operations the reference uses — the same gather of source rows, the same two accumulating scatters from zeros —
  so the arrays the region finds are the reference's own stages of the same argument arrays; the weight and the bias
  reach the region untouched. The kernel's result array is the layer of those four arrays, and so is the reference's
  result: the two are equal entry by entry, with no condition on the entries.
-/
import proofs.«119684_j12893491822858_1_alg».proof.Proof.WholeArray
import proofs.«119684_j12893491822858_1_alg».proof.Proof.HostPrefix
import proofs.«119684_j12893491822858_1_alg».proof.Proof.RefLayer

noncomputable section

namespace Cert.Bridge

open Idealize.ShloMosaic Idealize.ShloMosaic.TcCoe Idealize.SL.Sem Cert.MeanLinear
open Cert.KernelIdeal Cert.KernelIdeal.Gen

/-- The kernel program's sums are the reference's sums stage: the same operations of the same arrays. -/
theorem sums_eq (x0 : (⟨S50000x100, .f32⟩ : BufTy).Contents (Elt Ideal)) (x1 x2 : (⟨S800000, .i32⟩ : BufTy).Contents (Elt Ideal)) :
    Cert.KernelIdeal.Prefix.sums x0 x1 x2 = Cert.ReferenceIdeal.Read.val_main_v9 (F := Ideal) x0 x1 x2 := rfl

/-- The kernel program's in-degree column is the reference's degrees stage laid out as a column. -/
theorem degs_eq (x2 : (⟨S800000, .i32⟩ : BufTy).Contents (Elt Ideal)) :
    broadcastInDim S50000x1 ![0] Cert.KernelIdeal.Facts₀.bcast_S50000_S50000x1_0 (Cert.KernelIdeal.Prefix.degs x2)
      = Cert.ReferenceIdeal.RefLayer.degsColumn x2 := rfl

variable (m : (ℓ : Loc nD τ sig) → Buf (Elt Ideal) ℓ)

/-- The arrays the region finds, as the reference's stages of the argument arrays. -/
theorem sumsArr_eq (c : Dev nD) :
    Whole.sumsArr m c = Cert.ReferenceIdeal.Read.val_main_v9 (F := Ideal) (m ((c : Thread nD τ).loc main_arg0))
      (m ((c : Thread nD τ).loc main_arg1)) (m ((c : Thread nD τ).loc main_arg2)) :=
  (Prefix.V_sums m c).trans (sums_eq _ _ _)

theorem degsArr_eq (c : Dev nD) :
    Whole.degsArr m c = Cert.ReferenceIdeal.RefLayer.degsColumn (m ((c : Thread nD τ).loc main_arg2)) :=
  (Prefix.V_degs m c).trans (degs_eq _)

theorem weightArr_eq (c : Dev nD) : Whole.weightArr m c = m ((c : Thread nD τ).loc main_arg3) := V_main_arg3 m c

theorem biasArr_eq (c : Dev nD) : Whole.biasArr m c = m ((c : Thread nD τ).loc main_arg4) := V_main_arg4 m c

/-- The kernel's result array is the reference's result stage of the kernel's own argument arrays. -/
theorem result_eq (c : Dev nD) :
    Whole.result m c = Cert.ReferenceIdeal.Read.val_main_v22 (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) := by
  rw [Cert.ReferenceIdeal.RefLayer.result_eq]
  unfold Whole.result
  rw [sumsArr_eq m c, degsArr_eq m c, weightArr_eq m c, biasArr_eq m c]

end Cert.Bridge

end
-- ==== Proof.lean ====
/-
  A graph layer — the mean of the in-neighbours' features followed by a linear map — computed two ways.

  Both programs first build, with the same operations, the per-node sums `S` of the in-neighbours' feature rows
  (a gather of each edge's source row, added into the destination's row) and the in-degrees `D` (a one per edge
  added into the destination's entry). The reference then forms `S / max (D, 1)` row by row, multiplies by the weight
  `W` and adds the bias `b`. The kernel does the division, the product and the addition block by block: ten
  blocks of 5000 rows, each row of the result depending on the same row of `S` and `D` only, the operands of the
  product rounded to bf16 on the way in — which changes nothing on the extended reals, where a product accumulated from
  zero is the plain sum `∑ k, lhs (p, k) · rhs (k, q)`.

  So on the extended reals both results are, at `(i, j)`,  `(∑ k, S (i, k) / max (D i) 1 · W (k, j)) + b j`,
  term for term; no law of arithmetic beyond that reading is used, and the inputs' finiteness is never needed.

  The modules: `MeanLinearSpec` (the function), `BlockPayload` (the kernel body on one block is that function on
  5000 rows), `WholeArray` (the ten blocks are the function on all rows), `HostPrefix` (what the region finds in its
  windows), `RefLayer` (the reference is that function of its own stages), `Bridge` (the two sets of stages are one).
-/
import proofs.«119684_j12893491822858_1_alg».proof.Defs
import proofs.«119684_j12893491822858_1_alg».proof.Proof.Gen.Kernel
import proofs.«119684_j12893491822858_1_alg».proof.Proof.Gen.Kernel.Skeleton
import proofs.«119684_j12893491822858_1_alg».proof.Proof.Gen.Kernel.Launch
import proofs.«119684_j12893491822858_1_alg».proof.Proof.Gen.Kernel.Points
import proofs.«119684_j12893491822858_1_alg».proof.Proof.Gen.Kernel.Frame
import proofs.«119684_j12893491822858_1_alg».proof.Proof.Gen.KernelIdeal
import proofs.«119684_j12893491822858_1_alg».proof.Proof.Gen.KernelIdeal.Skeleton
import proofs.«119684_j12893491822858_1_alg».proof.Proof.Gen.KernelIdeal.Launch
import proofs.«119684_j12893491822858_1_alg».proof.Proof.Gen.KernelIdeal.Points
import proofs.«119684_j12893491822858_1_alg».proof.Proof.Gen.KernelIdeal.Frame
import proofs.«119684_j12893491822858_1_alg».proof.Proof.Gen.ReferenceIdeal
import proofs.«119684_j12893491822858_1_alg».proof.Proof.Gen.KernelIdeal.Value
import proofs.«119684_j12893491822858_1_alg».proof.Proof.Gen.ReferenceIdeal.Run
import proofs.«119684_j12893491822858_1_alg».proof.Proof.Gen.ReferenceIdeal.Read
import proofs.«119684_j12893491822858_1_alg».proof.Proof.Gen.Pre_finite_inputs
import proofs.«119684_j12893491822858_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations: nothing to preserve. -/
theorem preserves : Cert.preserves_Kernel_KernelIdeal := trivial

/-- From memories that agree on the arguments, both programs end with the layer of the same four arrays in their
    result: the kernel's blocks assembled (`Whole.run`), the reference's stages read (`Bridge.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v22_eq]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
